-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : FVec F S512x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S512x128 : Shape := ⟨2, ![512, 128]⟩
abbrev S1x1 : Shape := ⟨2, ![1, 1]⟩
abbrev S512 : Shape := ⟨1, ![512]⟩
abbrev S512x1 : Shape := ⟨2, ![512, 1]⟩
abbrev S128x512 : Shape := ⟨2, ![128, 512]⟩
abbrev S512x512 : Shape := ⟨2, ![512, 512]⟩
abbrev S1x512 : Shape := ⟨2, ![1, 512]⟩
abbrev S1 : Shape := ⟨1, ![1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S1x1, .f32⟩
  | .hbm, ⟨3, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  transposes_S512x128_p1_0_S128x512 : S512x128.Transposes [1, 0] S128x512
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128 : Shape := ⟨2, ![512, 128]⟩
abbrev S512x1x128 : Shape := ⟨3, ![512, 1, 128]⟩
abbrev S1x512x128 : Shape := ⟨3, ![1, 512, 128]⟩
abbrev S512x512x128 : Shape := ⟨3, ![512, 512, 128]⟩
abbrev S_ : Shape := ⟨0, ![]⟩
abbrev S512x512 : Shape := ⟨2, ![512, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 31
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x1x128, .f32⟩
  | .hbm, ⟨3, _⟩ => ⟨S1x512x128, .f32⟩
  | .hbm, ⟨4, _⟩ => ⟨S512x512x128, .f32⟩
  | .hbm, ⟨5, _⟩ => ⟨S512x512x128, .f32⟩
  | .hbm, ⟨6, _⟩ => ⟨S512x512x128, .f32⟩
  | .hbm, ⟨7, _⟩ => ⟨S512x512x128, .f32⟩
  | .hbm, ⟨8, _⟩ => ⟨S_, .f32⟩
  | .hbm, ⟨9, _⟩ => ⟨S512x512, .f32⟩
  | .hbm, ⟨10, _⟩ => ⟨S512x1x128, .f32⟩
  | .hbm, ⟨11, _⟩ => ⟨S1x512x128, .f32⟩
  | .hbm, ⟨12, _⟩ => ⟨S512x512x128, .f32⟩
  | .hbm, ⟨13, _⟩ => ⟨S512x512x128, .f32⟩
  | .hbm, ⟨14, _⟩ => ⟨S512x512x128, .f32⟩
  | .hbm, ⟨15, _⟩ => ⟨S512x512x128, .f32⟩
  | .hbm, ⟨16, _⟩ => ⟨S_, .f32⟩
  | .hbm, ⟨17, _⟩ => ⟨S512x512, .f32⟩
  | .hbm, ⟨18, _⟩ => ⟨S512x512x1, .f32⟩
  | .hbm, ⟨19, _⟩ => ⟨S512x1x512, .f32⟩
  | .hbm, ⟨20, _⟩ => ⟨S512x512x512, .f32⟩
  | .hbm, ⟨21, _⟩ => ⟨S512x512x512, .f32⟩
  | .hbm, ⟨22, _⟩ => ⟨S512x512x512, .f32⟩
  | .hbm, ⟨23, _⟩ => ⟨S512x512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512x512x512, .f32⟩
  | .hbm, ⟨28, _⟩ => ⟨S_, .f32⟩
  | .hbm, ⟨29, _⟩ => ⟨S_, .f32⟩
  | .hbm, ⟨30, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  reducesTo_S512x512x128_S512x512_d2 : S512x512x128.ReducesTo [2] S512x512
  h_S_ : 0 < S_.numel
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  reducesTo_S512x512x512_S_d0_1_2 : S512x512x512.ReducesTo [0, 1, 2] S_

variable [Facts₀]

class Facts : Prop extends Facts₀ where

variable [Facts]
-- ==== Proof.GWAlgebra.lean ====
/-
  Sums of squared differences over finite index sets, in the reals, and the passage of finite sums
  from the reals to the extended reals.

  For a fixed row, with a_j and b_k the two families of distances of that row,
      sum_{j,k} (a_j - b_k)^2 = n * sum_j a_j^2 + n * sum_k b_k^2 - 2 * (sum_j a_j) * (sum_k b_k):
  expand the square; the k-sum of a_j^2 is n copies of it, the j-sum of b_k^2 likewise, and the
  double sum of the products a_j * b_k factors into the product of the two sums.
  For two points x_i, x_j with coordinates indexed by d,
      sum_d (x_id - x_jd)^2 = sum_d x_id^2 + sum_d x_jd^2 - 2 * sum_d x_id * x_jd.
-/
import Idealize.ShloMosaic.PureOps.Ideal

open scoped BigOperators

namespace Cert.GWAlgebra

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals is monotone, so it commutes with the maximum of two. -/
theorem coe_max (a b : ℝ) : ((max a b : ℝ) : EReal) = max (a : EReal) (b : EReal) :=
  EReal.coe_strictMono.monotone.map_max

/-- The squared distance of two points as norms and an inner product. -/
theorem sqdist_expand {D : ℕ} (u v : Fin D → ℝ) :
    ∑ d, (u d - v d) * (u d - v d) = (∑ d, u d * u d + ∑ d, v d * v d) - 2 * ∑ d, u d * v d := by
  rw [Finset.mul_sum, ← Finset.sum_add_distrib, ← Finset.sum_sub_distrib]
  exact Finset.sum_congr rfl fun d _ => by ring

/-- One row: the double sum of squared differences of two families. -/
theorem row_expand {n : ℕ} (a b : Fin n → ℝ) :
    ∑ j, ∑ k, (a j - b k) * (a j - b k)
      = ((n : ℝ) * ∑ j, a j * a j + (n : ℝ) * ∑ k, b k * b k) - 2 * ((∑ j, a j) * ∑ k, b k) := by
  have h1 : ∀ j, ∑ k, (a j - b k) * (a j - b k)
      = (n : ℝ) * (a j * a j) + ∑ k, b k * b k - 2 * (a j * ∑ k, b k) := by
    intro j
    have : ∀ k, (a j - b k) * (a j - b k) = a j * a j + b k * b k - 2 * (a j * b k) := fun k => by ring
    simp only [this]
    rw [Finset.sum_sub_distrib, Finset.sum_add_distrib, Finset.sum_const, Finset.card_univ, Fintype.card_fin,
      nsmul_eq_mul, ← Finset.mul_sum, ← Finset.mul_sum]
  simp only [h1]
  rw [Finset.sum_sub_distrib, Finset.sum_add_distrib, Finset.sum_const, Finset.card_univ, Fintype.card_fin,
    nsmul_eq_mul, ← Finset.mul_sum, ← Finset.mul_sum, ← Finset.sum_mul]

/-- All rows: the triple sum of squared differences, row by row. -/
theorem cube_expand {n : ℕ} (a b : Fin n → Fin n → ℝ) :
    ∑ i, ∑ j, ∑ k, (a i j - b i k) * (a i j - b i k)
      = ((n : ℝ) * ∑ i, ∑ j, a i j * a i j + (n : ℝ) * ∑ i, ∑ k, b i k * b i k)
        - 2 * ∑ i, (∑ j, a i j) * ∑ k, b i k := by
  simp only [row_expand]
  rw [Finset.sum_sub_distrib, Finset.sum_add_distrib, ← Finset.mul_sum, ← Finset.mul_sum, ← Finset.mul_sum]

end Cert.GWAlgebra
-- ==== Proof.GWConsts.lean ====
/-
  The float constants the two programs spell, as the extended reals their bit patterns denote:
  0, 1, 2, 512, 262144 = 2^18 and 2^-18 — every one of them a dyadic rational, so each pattern denotes
  its value exactly.
-/
import Idealize.ShloMosaic.PureOps.Ideal

noncomputable section

namespace Cert.GWConsts

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_262144 : Ideal.ofBits .f32 0x48800000#32 = ((262144 : ℝ) : EReal) := by
  simp [Ideal.ofBits, Ideal.ieee, -EReal.coe_mul]; norm_num

theorem ofBits_inv_262144 : Ideal.ofBits .f32 0x36800000#32 = ((1 / 262144 : ℝ) : EReal) := by
  simp [Ideal.ofBits, Ideal.ieee, -EReal.coe_mul]; norm_num

end Cert.GWConsts

end
-- ==== Proof.GWSpec.lean ====
/-
  The two programs' results as functions of the two point clouds, over the extended reals, and
  their equality on finite inputs.

  A cloud is 512 points with 128 coordinates.  With  |x_i|^2 = sum_d x_id^2  and  <x_i, x_j> = sum_d x_id x_jd,
  the kernel forms the squared distances as   C[i,j] = (|x_i|^2 + |x_j|^2) - 2 <x_i, x_j>   and returns
      ((512 * sum_{i,j} Cs[i,j]^2 + 512 * sum_{i,j} Ct[i,j]^2) - 2 * sum_i (sum_j Cs[i,j]) (sum_j Ct[i,j])) * 2^-18,
  while the reference forms   C[i,j] = sum_d (x_id - x_jd)^2   and returns
      (sum_{i,j,k} |Cs[i,j] - Ct[i,k]|^2) * (1 / 262144).
  The two distance matrices agree by expanding the square; |r|^2 = r^2; the triple sum expands row by row
  (GWAlgebra.cube_expand with n = 512); and 1/262144 = 2^-18.  Every step distributes a product over a sum or
  cancels, which on the extended reals needs finite entries: the inputs are finite, so both sides are the
  images of real numbers and the identity is proved in the reals.
-/
import Idealize.ShloMosaic.Lib.ValueIdx
import proofs.«159151_j56573309223311_2_alg».proof.Proof.GWAlgebra
import proofs.«159151_j56573309223311_2_alg».proof.Proof.GWConsts

open scoped BigOperators

noncomputable section

namespace Cert.GWSpec

open Idealize.ShloMosaic Idealize.ShloMosaic.ValueIdx

/-- A cloud of 512 points with 128 coordinates, entries in the extended reals. -/
abbrev Pts := (⟨2, ![512, 128]⟩ : Shape).Idx → EReal

/-! ## The kernel's function -/

/-- The squared norm of point i. -/
def sqnorm (x : Pts) (i : Fin 512) : EReal := ∑ d : Fin 128, x (ix2 i d) * x (ix2 i d)
/-- The inner product of points i and j. -/
def gram (x : Pts) (i j : Fin 512) : EReal := ∑ d : Fin 128, x (ix2 i d) * x (ix2 j d)
/-- The squared distance of points i and j, from norms and the inner product. -/
def distK (x : Pts) (i j : Fin 512) : EReal :=
  (sqnorm x i + sqnorm x j) - Ideal.ofBits .f32 0x40000000#32 * gram x i j
/-- The sum of the squares of all squared distances. -/
def sumSq (x : Pts) : EReal := ∑ i : Fin 512, ∑ j : Fin 512, distK x i j * distK x i j
/-- The sum over the rows of the product of the two clouds' row sums of squared distances. -/
def cross (x y : Pts) : EReal := ∑ i : Fin 512, (∑ j : Fin 512, distK x i j) * (∑ j : Fin 512, distK y i j)
/-- What the kernel returns. -/
def kernelVal (x y : Pts) : EReal :=
  ((Ideal.ofBits .f32 0x44000000#32 * sumSq x + Ideal.ofBits .f32 0x44000000#32 * sumSq y)
    - Ideal.ofBits .f32 0x40000000#32 * cross x y) * Ideal.ofBits .f32 0x36800000#32

/-! ## The reference's function -/

/-- The squared distance of points i and j, as the sum of the squared coordinate differences. -/
def distR (x : Pts) (i j : Fin 512) : EReal :=
  Ideal.ofBits .f32 0x00000000#32 + ∑ d : Fin 128, (x (ix2 i d) - x (ix2 j d)) * (x (ix2 i d) - x (ix2 j d))
/-- The absolute difference of a distance in the first cloud and one in the second, both from point i. -/
def cost (x y : Pts) (i j k : Fin 512) : EReal :=
  max (distR x i j - distR y i k) (-(distR x i j - distR y i k))
/-- What the reference returns. -/
def refVal (x y : Pts) : EReal :=
  (Ideal.ofBits .f32 0x00000000#32 + ∑ i : Fin 512, ∑ j : Fin 512, ∑ k : Fin 512, cost x y i j k * cost x y i j k)
    * Ideal.div (Ideal.ofBits .f32 0x3F800000#32) (Ideal.ofBits .f32 0x48800000#32)

/-! ## The same two functions over the reals -/

abbrev RPts := (⟨2, ![512, 128]⟩ : Shape).Idx → ℝ

def distKR (x : RPts) (i j : Fin 512) : ℝ :=
  (∑ d : Fin 128, x (ix2 i d) * x (ix2 i d) + ∑ d : Fin 128, x (ix2 j d) * x (ix2 j d))
    - 2 * ∑ d : Fin 128, x (ix2 i d) * x (ix2 j d)
def kernelValR (x y : RPts) : ℝ :=
  ((512 * (∑ i : Fin 512, ∑ j : Fin 512, distKR x i j * distKR x i j)
      + 512 * (∑ i : Fin 512, ∑ j : Fin 512, distKR y i j * distKR y i j))
    - 2 * (∑ i : Fin 512, (∑ j : Fin 512, distKR x i j) * (∑ j : Fin 512, distKR y i j))) * (1 / 262144)
def distRR (x : RPts) (i j : Fin 512) : ℝ :=
  0 + ∑ d : Fin 128, (x (ix2 i d) - x (ix2 j d)) * (x (ix2 i d) - x (ix2 j d))
def costR (x y : RPts) (i j k : Fin 512) : ℝ :=
  max (distRR x i j - distRR y i k) (-(distRR x i j - distRR y i k))
def refValR (x y : RPts) : ℝ :=
  (0 + ∑ i : Fin 512, ∑ j : Fin 512, ∑ k : Fin 512, costR x y i j k * costR x y i j k) * (1 * (1 / 262144))

/-- On real entries the kernel's function is the image of its real form. -/
theorem kernelVal_coe (x y : RPts) :
    kernelVal (fun i => (x i : EReal)) (fun i => (y i : EReal)) = ((kernelValR x y : ℝ) : EReal) := by
  simp only [kernelVal, sumSq, cross, distK, sqnorm, gram, kernelValR, distKR, GWConsts.ofBits_two, GWConsts.ofBits_512,
    GWConsts.ofBits_inv_262144, EReal.coe_mul, EReal.coe_add, EReal.coe_sub, GWAlgebra.coe_sum]

/-- On real entries the reference's function is the image of its real form. -/
theorem refVal_coe (x y : RPts) :
    refVal (fun i => (x i : EReal)) (fun i => (y i : EReal)) = ((refValR x y : ℝ) : EReal) := by
  have hdiv : Ideal.div (((1 : ℝ) : EReal)) (((262144 : ℝ) : EReal)) = ((1 : ℝ) : EReal) * ((1 / 262144 : ℝ) : EReal) :=
    Ideal.div_coe (by norm_num) _
  simp only [refVal, cost, distR, refValR, costR, distRR, GWConsts.ofBits_zero, GWConsts.ofBits_one, GWConsts.ofBits_262144,
    hdiv, EReal.coe_mul, EReal.coe_add, EReal.coe_sub, EReal.coe_neg, GWAlgebra.coe_max, GWAlgebra.coe_sum]

/-- The real identity. -/
theorem kernelValR_eq_refValR (x y : RPts) : kernelValR x y = refValR x y := by
  have hd : ∀ (z : RPts) (i j : Fin 512), distRR z i j = distKR z i j := fun z i j => by
    unfold distRR distKR
    rw [zero_add, GWAlgebra.sqdist_expand (fun d => z (ix2 i d)) (fun d => z (ix2 j d))]
  have hc : ∀ i j k, costR x y i j k * costR x y i j k
      = (distKR x i j - distKR y i k) * (distKR x i j - distKR y i k) := fun i j k => by
    unfold costR
    rw [hd, hd, ← abs_eq_max_neg, abs_mul_abs_self]
  unfold refValR kernelValR
  simp only [hc]
  rw [zero_add, one_mul, GWAlgebra.cube_expand (fun i j => distKR x i j) (fun i k => distKR y i k)]
  norm_num

/-- On finite inputs the kernel's function and the reference's agree. -/
theorem kernelVal_eq_refVal (x y : Pts) (hx : ∀ i, ∃ r : ℝ, x i = (r : EReal)) (hy : ∀ i, ∃ r : ℝ, y i = (r : EReal)) :
    kernelVal x y = refVal x y := by
  choose x' hx' using hx
  choose y' hy' using hy
  obtain rfl : x = fun i => (x' i : EReal) := funext hx'
  obtain rfl : y = fun i => (y' i : EReal) := funext hy'
  rw [kernelVal_coe, refVal_coe, kernelValR_eq_refValR]

end Cert.GWSpec

end
-- ==== Proof.GWLayout.lean ====
/-
  Column forms of the layout operations, read at an index given by coordinates: a vector made a column
  ([a] to [a, 1]), a column broadcast along its rows ([a, 1] to [a, b]), and the sums along one axis of a
  matrix and down a column, each as a sum over that axis's coordinate.
-/
import Idealize.ShloMosaic.Lib.ValueLayout
import Idealize.ShloMosaic.PureOps.Ideal.Laws

open scoped BigOperators

namespace Cert.GWLayout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` matrix, at row `i`: the sum over the column coordinate. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src (funext fun c => Fin.ext ?_)
  match c with
  | ⟨0, _⟩ => rfl
  | ⟨1, _⟩ => rfl

/-- The sum down an `[a, 1]` column: the sum over the row coordinate. -/
theorem colSum_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ) (u : Fin 1) :
    multiReduction (F := Ideal) .add [0] ⟨1, ![1]⟩ src 0x00000000#32 h hφ hacc (ix1 u) = ∑ k : Fin a, src (ix2 k (0 : Fin 1)) := by
  refine (Ideal.multiReduction_add_single src 0x00000000#32 h hφ hacc (ix1 u)).trans ?_
  refine Finset.sum_congr rfl fun k _ => congrArg src (funext fun c => Fin.ext ?_)
  match c with
  | ⟨0, _⟩ => rfl
  | ⟨1, hc⟩ =>
    have hlt : ((h.lift (ix1 u) k) ⟨1, hc⟩).val < 1 := ((h.lift (ix1 u) k) ⟨1, hc⟩).isLt
    show ((h.lift (ix1 u) k) ⟨1, hc⟩).val = 0
    omega

end Cert.GWLayout
-- ==== Proof.GWKernel.lean ====
/-
  The kernel body's stored value, read at its one index, is the function GWSpec.kernelVal of the two
  loaded clouds.

  For one cloud x the body forms the column of squared norms (the sum of x * x along the coordinate axis,
  made a column), the matrix of inner products (the product of x with its transpose, accumulated from zero),
  and from them the matrix  C[i,j] = (|x_i|^2 + |x_j|^2) - 2 <x_i, x_j>:  the column broadcast along the rows
  gives |x_i|^2 at (i, j), its transpose broadcast down the columns gives |x_j|^2.  The sum of C * C along
  the rows and then down the resulting column is the sum over all (i, j); the row sums of the two clouds'
  matrices, multiplied entrywise and summed down the column, give the cross term.
-/
import proofs.«159151_j56573309223311_2_alg».proof.Proof.Gen.KernelIdeal.Skeleton
import proofs.«159151_j56573309223311_2_alg».proof.Proof.GWSpec
import proofs.«159151_j56573309223311_2_alg».proof.Proof.GWLayout

open scoped BigOperators

noncomputable section

namespace Cert.GWKernel

open Cert.KernelIdeal Cert.KernelIdeal.Gen Idealize.ShloMosaic Idealize.ShloMosaic.ValueIdx

/-- The dimension numbers of the product of a cloud with its transpose: rows of the left operand against
    columns of the right, contracted over the 128 coordinates. -/
abbrev dotRec : DotDims S512x128 S128x512 S512x512 := dot_S512x128_S128x512_S512x512_1_0_0_1_n_n

theorem lhs0 (i : S512x512.Idx) (q : dotRec.contr.Idx) : (dotRec.lhsIdx i q 0).val = (i 0).val := by
  unfold DotDims.lhsIdx
  rw [dif_neg (show ¬(0 : Fin S512x128.rank) ∈ dotRec.lhsBatch by decide),
    dif_pos (show (0 : Fin S512x128.rank) ∈ dotRec.lhsNonContracting by decide)]
  rfl
theorem lhs1 (i : S512x512.Idx) (q : dotRec.contr.Idx) : (dotRec.lhsIdx i q 1).val = (q ⟨0, by decide⟩).val :=
  dotRec.lhsIdx_val_of_single rfl i q
theorem rhs0 (i : S512x512.Idx) (q : dotRec.contr.Idx) : (dotRec.rhsIdx i q 0).val = (q ⟨0, by decide⟩).val :=
  dotRec.rhsIdx_val_of_single rfl i q
theorem rhs1 (i : S512x512.Idx) (q : dotRec.contr.Idx) : (dotRec.rhsIdx i q 1).val = (i 1).val := by
  unfold DotDims.rhsIdx
  rw [dif_neg (show ¬(1 : Fin S128x512.rank) ∈ dotRec.rhsBatch by decide),
    dif_pos (show (1 : Fin S128x512.rank) ∈ dotRec.rhsNonContracting by decide)]
  rfl

/-- The product of a cloud with its transpose, at (i, j): the inner product of points i and j. -/
theorem gram_apply (x : FVec Ideal S512x128 .f32) (i j : Fin 512) :
    matmul (F := Ideal) dotRec (some .fp32) x (transpose S128x512 [1, 0] x transposes_S512x128_p1_0_S128x512)
      (constant (F := Ideal) S512x512 .f32 0x00000000#32) (ix2 i j) = GWSpec.gram x i j := by
  refine (Ideal.matmul_constant_zero_apply dotRec (some .fp32) x _ (ix2 i j)).trans ?_
  unfold GWSpec.gram
  rw [← Equiv.sum_comp (contrEquiv1 dotRec 128 rfl rfl).symm]
  refine Finset.sum_congr rfl fun k _ => ?_
  have hk := contrEquiv1_symm_val dotRec 128 rfl rfl k
  have el : dotRec.lhsIdx (ix2 i j) ((contrEquiv1 dotRec 128 rfl rfl).symm k) = ix2 i k := funext fun a => Fin.ext (by
    match a with
    | ⟨0, _⟩ => exact lhs0 _ _
    | ⟨1, _⟩ => exact (lhs1 _ _).trans hk)
  have er : dotRec.rhsIdx (ix2 i j) ((contrEquiv1 dotRec 128 rfl rfl).symm k) = ix2 k j := funext fun a => Fin.ext (by
    match a with
    | ⟨0, _⟩ => exact (rhs0 _ _).trans hk
    | ⟨1, _⟩ => exact rhs1 _ _)
  rw [el, er, transpose_ix2_apply]

/-- The column of squared norms at row i. -/
theorem sqnorm_apply (x : FVec Ideal S512x128 .f32) (i : Fin 512) (u : Fin 1) :
    shapeCast S512x1 (multiReduction (F := Ideal) .add [1] S512 (mulf x x) 0x00000000#32 reduces_S512x128_S512 (.inl rfl) rfl)
      shapeCasts_S512_S512x1 (ix2 i u) = GWSpec.sqnorm x i := by
  refine (GWLayout.shapeCast_a_a1_apply _ _ i u).trans ?_
  exact GWLayout.rowSum_apply (mulf x x) _ _ _ i

/-- The matrix of squared distances the body forms for one cloud, at (i, j). -/
theorem dist_apply (x : FVec Ideal S512x128 .f32) (i j : Fin 512) :
    k0_pay2 (F := Ideal) x (ix2 i j) = GWSpec.distK x i j := by
  unfold k0_pay2 GWSpec.distK
  rw [subf_apply, addf_apply, mulf_apply, broadcast_apply]
  refine congrArg₂ (· - ·) (congrArg₂ (· + ·) ?_ ?_) (congrArg₂ (· * ·) rfl ?_)
  · exact (GWLayout.broadcastTo_a1_ab_apply _ _ i j).trans (sqnorm_apply x i 0)
  · refine (broadcastTo_1b_ab_apply _ _ i j).trans ?_
    refine (transpose_ix2_apply _ _ (0 : Fin 1) j).trans ?_
    exact sqnorm_apply x j 0
  · exact gram_apply x i j

/-- The sum of the squares of all entries of a cloud's matrix of squared distances. -/
theorem sumSq_apply (x : FVec Ideal S512x128 .f32) (y : S1x1.Idx) :
    k0_pay4 (F := Ideal) x y = GWSpec.sumSq x := by
  obtain ⟨p, q, rfl⟩ : ∃ (p : Fin 1) (q : Fin 1), y = ix2 p q := ⟨y 0, y 1, eq_ix2 y⟩
  unfold k0_pay4 GWSpec.sumSq
  refine (GWLayout.shapeCast_a_a1_apply _ _ p q).trans ?_
  refine (GWLayout.colSum_apply _ _ _ _ p).trans ?_
  refine Finset.sum_congr rfl fun i _ => ?_
  refine (GWLayout.shapeCast_a_a1_apply _ _ i 0).trans ?_
  refine (GWLayout.rowSum_apply _ _ _ _ i).trans ?_
  refine Finset.sum_congr rfl fun j _ => ?_
  rw [mulf_apply, dist_apply]

/-- The second cloud's matrix of squared distances: the same operations on the second loaded block. -/
theorem dist_apply' (x : FVec Ideal S512x128 .f32) (i j : Fin 512) :
    k0_pay3 (F := Ideal) x (ix2 i j) = GWSpec.distK x i j := by
  unfold k0_pay3 GWSpec.distK
  rw [subf_apply, addf_apply, mulf_apply, broadcast_apply]
  refine congrArg₂ (· - ·) (congrArg₂ (· + ·) ?_ ?_) (congrArg₂ (· * ·) rfl ?_)
  · exact (GWLayout.broadcastTo_a1_ab_apply _ _ i j).trans (sqnorm_apply x i 0)
  · refine (broadcastTo_1b_ab_apply _ _ i j).trans ?_
    refine (transpose_ix2_apply _ _ (0 : Fin 1) j).trans ?_
    exact sqnorm_apply x j 0
  · exact gram_apply x i j

theorem sumSq_apply' (x : FVec Ideal S512x128 .f32) (y : S1x1.Idx) :
    k0_pay5 (F := Ideal) x y = GWSpec.sumSq x := by
  obtain ⟨p, q, rfl⟩ : ∃ (p : Fin 1) (q : Fin 1), y = ix2 p q := ⟨y 0, y 1, eq_ix2 y⟩
  unfold k0_pay5 GWSpec.sumSq
  refine (GWLayout.shapeCast_a_a1_apply _ _ p q).trans ?_
  refine (GWLayout.colSum_apply _ _ _ _ p).trans ?_
  refine Finset.sum_congr rfl fun i _ => ?_
  refine (GWLayout.shapeCast_a_a1_apply _ _ i 0).trans ?_
  refine (GWLayout.rowSum_apply _ _ _ _ i).trans ?_
  refine Finset.sum_congr rfl fun j _ => ?_
  rw [mulf_apply, dist_apply']

/-- The cross term: the two clouds' row sums, multiplied row by row and summed. -/
theorem cross_apply (x y : FVec Ideal S512x128 .f32) (u : Fin 1) :
    k0_pay6 (F := Ideal) x y (ix1 u) = GWSpec.cross x y := by
  unfold k0_pay6 GWSpec.cross
  refine (GWLayout.colSum_apply _ _ _ _ u).trans ?_
  refine Finset.sum_congr rfl fun i _ => ?_
  rw [mulf_apply]
  refine congrArg₂ (· * ·) ?_ ?_
  · refine (GWLayout.shapeCast_a_a1_apply _ _ i 0).trans ?_
    refine (GWLayout.rowSum_apply _ _ _ _ i).trans ?_
    exact Finset.sum_congr rfl fun j _ => dist_apply x i j
  · refine (GWLayout.shapeCast_a_a1_apply _ _ i 0).trans ?_
    refine (GWLayout.rowSum_apply _ _ _ _ i).trans ?_
    exact Finset.sum_congr rfl fun j _ => dist_apply' y i j

/-- The stored value at its one index. -/
theorem payload_apply (x y : FVec Ideal S512x128 .f32) (z : S1x1.Idx) :
    k0_pay1 (F := Ideal) (k0_pay4 x) (k0_pay5 y) (k0_pay6 x y) z = GWSpec.kernelVal x y := by
  obtain ⟨p, q, rfl⟩ : ∃ (p : Fin 1) (q : Fin 1), z = ix2 p q := ⟨z 0, z 1, eq_ix2 z⟩
  unfold k0_pay1 GWSpec.kernelVal
  simp only [mulf_apply, subf_apply, addf_apply, broadcast_apply]
  refine congrArg₂ (· * ·) (congrArg₂ (· - ·) (congrArg₂ (· + ·) (congrArg₂ (· * ·) rfl ?_) (congrArg₂ (· * ·) rfl ?_))
    (congrArg₂ (· * ·) rfl ?_)) rfl
  · exact sumSq_apply x _
  · exact sumSq_apply' y _
  · exact (GWLayout.shapeCast_a_a1_apply _ _ p q).trans (cross_apply x y p)

end Cert.GWKernel

end
-- ==== Proof.GWRun.lean ====
/-
  The kernel program's run, read: its result holds GWSpec.kernelVal of the two argument arrays.

  The grid has one point, and at it each input window's block is its whole array and the output window's
  block is the whole 1 x 1 result array; so what the one write-back leaves in that array is the body's
  stored value of the two argument arrays, and the program's result is that array recast to a scalar.
-/
import proofs.«159151_j56573309223311_2_alg».proof.Proof.Gen.KernelIdeal.Frame
import proofs.«159151_j56573309223311_2_alg».proof.Proof.GWKernel
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.GWRun

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- At the grid's one point every window's block index is zero on both axes. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The result array after the region: one entry, the kernel's function of the two argument arrays. -/
abbrev result (c : Dev nD) : Buf (Elt Ideal) ((c : Thread nD τ).loc main_v0) :=
  fun _ => GWSpec.kernelVal (m ((c : Thread nD τ).loc main_arg0)) (m ((c : Thread nD τ).loc main_arg1))

/-- The first input window's block is the first argument array. -/
theorem iblk0_eq (c : Dev nD) (t : Fin cfg0.N) :
    (iblk m c 0 t : S512x128.Idx → Elt Ideal .f32) = m ((c : Thread nD τ).loc main_arg0) := by
  obtain ⟨e0, e1, -, -, -, -⟩ := idx_facts t
  funext y
  unfold iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 512 + 1 * (y 0).val = (y 0).val; rw [e0]; omega
  | ⟨1, _⟩ => show win0_0.index t (1 : Fin 2) * 128 + 1 * (y 1).val = (y 1).val; rw [e1]; omega

/-- The second input window's block is the second argument array. -/
theorem iblk1_eq (c : Dev nD) (t : Fin cfg0.N) :
    (iblk m c 1 t : S512x128.Idx → Elt Ideal .f32) = m ((c : Thread nD τ).loc main_arg1) := by
  obtain ⟨-, -, e0, e1, -, -⟩ := idx_facts t
  funext y
  unfold iblk
  rw [View.read_apply]
  show V m c main_arg1 _ = m (c.tc.loc main_arg1) _
  rw [V_main_arg1]
  refine congrArg _ (funext fun a => Fin.ext ?_)
  match a with
  | ⟨0, _⟩ => show win0_1.index t (0 : Fin 2) * 512 + 1 * (y 0).val = (y 0).val; rw [e0]; omega
  | ⟨1, _⟩ => show win0_1.index t (1 : Fin 2) * 128 + 1 * (y 1).val = (y 1).val; rw [e1]; omega

/-- What the one point writes back is the block of `result`. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero hz]
  simp only [View.ld_unit_zero (S := S512x128) hz]
  funext j
  show k0_pay1 (k0_pay4 (iblk m c 0 t)) (k0_pay5 (iblk m c 1 t)) (k0_pay6 (iblk m c 0 t) (iblk m c 1 t)) j
    = GWSpec.kernelVal (m ((c : Thread nD τ).loc main_arg0)) (m ((c : Thread nD τ).loc main_arg1))
  rw [iblk0_eq m c t, iblk1_eq m c t]
  exact GWKernel.payload_apply _ _ j

/-- An index of the result array is in point `t`'s block iff each coordinate is in the block's range on its axis. -/
theorem mem_blk (t : Fin cfg0.N) (i : S1x1.Idx) :
    i ∈ ((cfg0.win 2).blk t).view.set ↔ ∀ a : Fin 2, win0_2.index t a * S1x1.size a ≤ (i a).val
      ∧ (i a).val < win0_2.index t a * S1x1.size a + S1x1.size a := by
  show i ∈ ((View.whole main_v0).slice (win0_2.rect t)).set ↔ _
  rw [View.set_slice_whole, Rect.mem_set_unit]
  exact Iff.rfl

/-- The result array after the region is `result`: the one point's block covers it. -/
theorem final (c : Dev nD) : (dats m 0 c).arrAt 2 cfg0.N = result m c :=
  (dats m 0 c).arrAt_eq_of_cover 2 (result m c) (fun t _ => flushed_eq m c t) fun i =>
    ⟨t0_0, flush0_2 t0_0, by
      obtain ⟨-, -, -, -, e0, e1⟩ := idx_facts t0_0
      rw [mem_blk]
      intro a
      have h0 : (i 0).val < 1 := (i 0).isLt
      have h1 : (i 1).val < 1 := (i 1).isLt
      match a with
      | ⟨0, _⟩ =>
        show win0_2.index t0_0 (0 : Fin 2) * 1 ≤ (i 0).val ∧ (i 0).val < win0_2.index t0_0 (0 : Fin 2) * 1 + 1
        rw [e0]; omega
      | ⟨1, _⟩ =>
        show win0_2.index t0_0 (1 : Fin 2) * 1 ≤ (i 1).val ∧ (i 1).val < win0_2.index t0_0 (1 : Fin 2) * 1 + 1
        rw [e1]; omega⟩

/-- The program's result: the result array recast to a scalar. -/
theorem tail_eq (c : Dev nD) :
    Pipeline.afterTail₀ cfgs (dats m) 0 (V0 m) [hostOps1] c main_v1
      = fun _ => GWSpec.kernelVal (m ((c : Thread nD τ).loc main_arg0)) (m ((c : Thread nD τ).loc main_arg1)) := by
  unfold Pipeline.afterTail₀
  show StableHlo.after hostOps1 _ (Proc.devRef .tc main_v1) = _
  after_results
  funext i
  have hA := (Pipeline.withArrays_arr spec0 launch0.win.arr_inj c (V0 m c)
    (fun w => (dats m 0 c).arrAt w cfg0.N) 2).trans (final m c)
  rw [hA]
  rfl

/-- The run, read: the program's result at the kernel's function of the arguments, the arguments unchanged. -/
theorem run : θ_run defs (onTc (τ := τ) (main (F := Ideal))) ⟨m, fun _ => 0, ρ⟩ fun r => ∀ c : Dev nD,
      r.2.mem ((c : Thread nD τ).loc main_v1)
        = (fun _ => GWSpec.kernelVal (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 (Pipeline.mem_restRefs_of main_v1 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.GWRun

end
-- ==== Proof.GWRef.lean ====
/-
  The reference's result, read index by index, is the function GWSpec.refVal of the two clouds.

  The reference broadcasts each cloud to [512, 512, 128] twice (point i along the second axis, point j
  along the first), subtracts, squares and sums over the coordinate axis: entry (i, j) of that sum is
  sum_d (x_id - x_jd)^2.  It then broadcasts the first cloud's matrix along a new last axis and the second
  cloud's along a new middle axis, so that entry (i, j, k) of the difference is Cs[i,j] - Ct[i,k]; takes the
  absolute value, squares, sums over all three axes, and multiplies by 1/262144.
-/
import proofs.«159151_j56573309223311_2_alg».proof.Proof.Gen.ReferenceIdeal.Read
import proofs.«159151_j56573309223311_2_alg».proof.Proof.GWSpec

open scoped BigOperators

noncomputable section

namespace Cert.GWRef

open Cert.ReferenceIdeal Cert.ReferenceIdeal.Read Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Entry (a, b) of the first cloud's distance matrix. -/
theorem dist0_apply (x0 : (⟨S512x128, .f32⟩ : BufTy).Contents (Elt Ideal)) (a b : Fin 512) :
    val_main_v6 (F := Ideal) x0 (ix2 a b) = GWSpec.distR x0 a b := by
  rw [val_main_v6_apply]
  unfold GWSpec.distR
  refine congrArg₂ (· + ·) rfl (Finset.sum_congr rfl fun k _ => ?_)
  rw [val_main_v5_apply, val_main_v4_apply, val_main_v2_apply, val_main_v0_apply, val_main_v3_apply, val_main_v1_apply]
  have e1 : idx_main_v0 (idx_main_v2 (idx_main_v6 (ix2 a b) k)) = ix2 a k :=
    funext fun c => Fin.ext (by match c with | ⟨0, _⟩ => rfl | ⟨1, _⟩ => rfl)
  have e2 : idx_main_v1 (idx_main_v3 (idx_main_v6 (ix2 a b) k)) = ix2 b k :=
    funext fun c => Fin.ext (by match c with | ⟨0, _⟩ => rfl | ⟨1, _⟩ => rfl)
  rw [e1, e2]
  rfl

/-- Entry (a, b) of the second cloud's distance matrix. -/
theorem dist1_apply (x1 : (⟨S512x128, .f32⟩ : BufTy).Contents (Elt Ideal)) (a b : Fin 512) :
    val_main_v13 (F := Ideal) x1 (ix2 a b) = GWSpec.distR x1 a b := by
  rw [val_main_v13_apply]
  unfold GWSpec.distR
  refine congrArg₂ (· + ·) rfl (Finset.sum_congr rfl fun k _ => ?_)
  rw [val_main_v12_apply, val_main_v11_apply, val_main_v9_apply, val_main_v7_apply, val_main_v10_apply, val_main_v8_apply]
  have e1 : idx_main_v7 (idx_main_v9 (idx_main_v13 (ix2 a b) k)) = ix2 a k :=
    funext fun c => Fin.ext (by match c with | ⟨0, _⟩ => rfl | ⟨1, _⟩ => rfl)
  have e2 : idx_main_v8 (idx_main_v10 (idx_main_v13 (ix2 a b) k)) = ix2 b k :=
    funext fun c => Fin.ext (by match c with | ⟨0, _⟩ => rfl | ⟨1, _⟩ => rfl)
  rw [e1, e2]
  rfl

/-- The reference's result is GWSpec.refVal of the two clouds. -/
theorem result_eq (x0 x1 : (⟨S512x128, .f32⟩ : BufTy).Contents (Elt Ideal)) (i : S_.Idx) :
    val_main_v23 (F := Ideal) x0 x1 i = GWSpec.refVal x0 x1 := by
  rw [val_main_v23_apply, val_main_v22_apply, val_main_v20_apply, sum_idx3]
  unfold GWSpec.refVal
  refine congrArg₂ (· * ·) (congrArg₂ (· + ·) rfl (Finset.sum_congr rfl fun a _ => Finset.sum_congr rfl fun b _ =>
    Finset.sum_congr rfl fun c _ => ?_)) rfl
  rw [val_main_v21_apply, val_main_v19_apply, val_main_v18_apply, val_main_v16_apply, val_main_v14_apply,
    val_main_v17_apply, val_main_v15_apply]
  have e1 : idx_main_v14 (idx_main_v16 (ix3 a b c)) = ix2 a b :=
    funext fun q => Fin.ext (by match q with | ⟨0, _⟩ => rfl | ⟨1, _⟩ => rfl)
  have e2 : idx_main_v15 (idx_main_v17 (ix3 a b c)) = ix2 a c :=
    funext fun q => Fin.ext (by match q with | ⟨0, _⟩ => rfl | ⟨1, _⟩ => rfl)
  rw [e1, e2, dist0_apply, dist1_apply]
  rfl

end Cert.GWRef

end
-- ==== Proof.GWFinite.lean ====
/-
  From the precondition to real entries.  The precondition says of each input array that every entry's
  absolute value is below the pattern 0x7F800000, which denotes +infinity; an extended real whose absolute
  value max(x, -x) is below +infinity is neither infinity, so it is a real number.
-/
import proofs.«159151_j56573309223311_2_alg».proof.Pre_finite_inputs
import proofs.«159151_j56573309223311_2_alg».proof.Proof.Gen.Pre_finite_inputs
import Idealize.ShloMosaic.Lib.ReduceAll
import Idealize.ShloMosaic.Lib.Affine
import Idealize.ShloMosaic.Lib.ValueIdx
import Idealize.ShloMosaic.PureOps.Ideal

noncomputable section

namespace Cert.GWFinite

open Idealize.ShloMosaic Cert.Pre_finite_inputs

/-- The scalar shape has one index. -/
instance : Subsingleton S_.Idx := ⟨fun a b => funext fun d => d.elim0⟩

/-- An extended real whose absolute value compares below +infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hc
    simp [Ideal.cmp, hc] at h
  induction x using EReal.rec with
  | bot => simp at hlt
  | top => simp at hlt
  | coe r => exact ⟨r, rfl⟩

/-- Under the precondition every entry of both input arrays is a real number. -/
theorem real_of_pre (x0 x1 : FVec Ideal S512x128 .f32) (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  change IntOp.andi _ _ = 1#1 at h0
  obtain ⟨ha, hb⟩ := IntOp.andi_eq_one.1 h0
  refine ⟨fun i => real_of_abs_lt_top _ ?_, fun i => real_of_abs_lt_top _ ?_⟩
  · exact Host.reduce_andi_all _ _ _ _ _ ha i
  · exact Host.reduce_andi_all _ _ _ _ _ hb i

end Cert.GWFinite

end
-- ==== Proof.lean ====
/-
  The Gromov-Wasserstein-style cost reduction: the kernel's O(n^2) form against the reference's O(n^3) form.

  For two clouds of 512 points with 128 coordinates, with squared-distance matrices Cs and Ct, the reference
  returns  (sum_{i,j,k} |Cs[i,j] - Ct[i,k]|^2) / 512^2,  and the kernel returns
      (512 * sum Cs^2 + 512 * sum Ct^2 - 2 * sum_i rowsum(Cs)_i * rowsum(Ct)_i) * 2^-18,
  with Cs[i,j] = |x_i|^2 + |x_j|^2 - 2 <x_i, x_j> from the product of the cloud with its transpose.
  Both are one function of the clouds on finite inputs (GWSpec.kernelVal_eq_refVal): expand the squares
  and exchange the sums, which is where finiteness of the entries is used.  The kernel's result is read off
  its run (GWRun.run, over GWKernel), the reference's off its run one operation at a time (GWRef.result_eq),
  and the precondition gives real entries (GWFinite.real_of_pre).  The idealization rewrote nothing, so the
  kernel and its idealization are the same text and that conjunct is trivial.
-/
import proofs.«159151_j56573309223311_2_alg».proof.Defs
import proofs.«159151_j56573309223311_2_alg».proof.Proof.Gen.Kernel
import proofs.«159151_j56573309223311_2_alg».proof.Proof.Gen.Kernel.Skeleton
import proofs.«159151_j56573309223311_2_alg».proof.Proof.Gen.Kernel.Launch
import proofs.«159151_j56573309223311_2_alg».proof.Proof.Gen.Kernel.Points
import proofs.«159151_j56573309223311_2_alg».proof.Proof.Gen.Kernel.Frame
import proofs.«159151_j56573309223311_2_alg».proof.Proof.Gen.KernelIdeal
import proofs.«159151_j56573309223311_2_alg».proof.Proof.Gen.KernelIdeal.Skeleton
import proofs.«159151_j56573309223311_2_alg».proof.Proof.Gen.KernelIdeal.Launch
import proofs.«159151_j56573309223311_2_alg».proof.Proof.Gen.KernelIdeal.Points
import proofs.«159151_j56573309223311_2_alg».proof.Proof.Gen.KernelIdeal.Frame
import proofs.«159151_j56573309223311_2_alg».proof.Proof.Gen.ReferenceIdeal
import proofs.«159151_j56573309223311_2_alg».proof.Proof.Gen.Pre_finite_inputs
import proofs.«159151_j56573309223311_2_alg».proof.Proof.Gen.ReferenceIdeal.Run
import proofs.«159151_j56573309223311_2_alg».proof.Proof.Gen.ReferenceIdeal.Read
import proofs.«159151_j56573309223311_2_alg».proof.Proof.GWRun
import proofs.«159151_j56573309223311_2_alg».proof.Proof.GWRef
import proofs.«159151_j56573309223311_2_alg».proof.Proof.GWFinite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the kernel's function of the argument arrays: the kernel by its run, the reference
    because on real entries its own function equals the kernel's. -/
theorem algebraic : Cert.algebraic_KernelIdeal_ReferenceIdeal := by
  intro m ρ m' ρ' hpre hagree
  refine ⟨fun c => fun _ => GWSpec.kernelVal (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.GWRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  funext i
  rw [Cert.GWRef.result_eq]
  obtain ⟨hx, hy⟩ := Cert.GWFinite.real_of_pre _ _ (hpre c)
  exact (Cert.GWSpec.kernelVal_eq_refVal _ _ hx hy).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
